-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x1024x64 : Shape := ⟨3, ![128, 1024, 64]⟩
abbrev S128x1024x1024 : Shape := ⟨3, ![128, 1024, 1024]⟩
abbrev S_ : Shape := ⟨0, ![]⟩

class Facts : Prop where
  bcast_S_S128x1024x64 : S_.BroadcastsInDim S128x1024x64 (![] : Fin 0 → Fin S128x1024x64.rank)
  reducesTo_S128x1024x64_S_d0_1_2 : S128x1024x64.ReducesTo [0, 1, 2] S_
  h_S_ : 0 < S_.numel

variable [Facts]

def fn {F : FTy → Type} [FloatOps F] (main_arg0 : FVec F S128x1024x64 .f32) (main_arg1 : FVec F S128x1024x64 .f32) (main_arg2 : FVec F S128x1024x64 .f32) (main_arg3 : IVec S128x1024x1024 1) : IVec S_ 1 :=
  let main_v0 : FVec F S128x1024x64 .f32 := Host.absf main_arg0
  let main_cst : FVec F S_ .f32 := constant S_ .f32 0x7F800000#32
  let main_v1 : FVec F S128x1024x64 .f32 := broadcastInDim S128x1024x64 ![] bcast_S_S128x1024x64 main_cst
  let main_v2 : IVec S128x1024x64 1 := cmpf .olt main_v0 main_v1
  let main_c : IVec S_ 1 := constantI S_ 1 1#1
  let main_v3 : IVec S_ 1 := (fun x v => Host.reduce IntOp.andi x v reducesTo_S128x1024x64_S_d0_1_2 h_S_) main_v2 main_c
  let main_v4 : FVec F S128x1024x64 .f32 := Host.absf main_arg1
  let main_cst_0 : FVec F S_ .f32 := constant S_ .f32 0x7F800000#32
  let main_v5 : FVec F S128x1024x64 .f32 := broadcastInDim S128x1024x64 ![] bcast_S_S128x1024x64 main_cst_0
  let main_v6 : IVec S128x1024x64 1 := cmpf .olt main_v4 main_v5
  let main_c_1 : IVec S_ 1 := constantI S_ 1 1#1
  let main_v7 : IVec S_ 1 := (fun x v => Host.reduce IntOp.andi x v reducesTo_S128x1024x64_S_d0_1_2 h_S_) main_v6 main_c_1
  let main_v8 : IVec S_ 1 := andi main_v3 main_v7
  let main_v9 : FVec F S128x1024x64 .f32 := Host.absf main_arg2
  let main_cst_2 : FVec F S_ .f32 := constant S_ .f32 0x7F800000#32
  let main_v10 : FVec F S128x1024x64 .f32 := broadcastInDim S128x1024x64 ![] bcast_S_S128x1024x64 main_cst_2
  let main_v11 : IVec S128x1024x64 1 := cmpf .olt main_v9 main_v10
  let main_c_3 : IVec S_ 1 := constantI S_ 1 1#1
  let main_v12 : IVec S_ 1 := (fun x v => Host.reduce IntOp.andi x v reducesTo_S128x1024x64_S_d0_1_2 h_S_) main_v11 main_c_3
  let main_v13 : IVec S_ 1 := andi main_v8 main_v12
  main_v13
-- ==== Kernel.lean ====
abbrev S128x1024x64 : Shape := ⟨3, ![128, 1024, 64]⟩
abbrev S128x1024x1024 : Shape := ⟨3, ![128, 1024, 1024]⟩
abbrev S1x1024x64 : Shape := ⟨3, ![1, 1024, 64]⟩
abbrev S1x1024x1024 : Shape := ⟨3, ![1, 1024, 1024]⟩
abbrev S1024x64 : Shape := ⟨2, ![1024, 64]⟩
abbrev S1024x1024 : Shape := ⟨2, ![1024, 1024]⟩
abbrev S64x1024 : Shape := ⟨2, ![64, 1024]⟩
abbrev S1024 : Shape := ⟨1, ![1024]⟩
abbrev S1024x1 : Shape := ⟨2, ![1024, 1]⟩

abbrev nBuf : Space → Nat
  | .hbm => 7
  | .vmem => 12
  | .smem => 0
  | _ => 0

abbrev bufTy : (tb : Table) → Fin (tcTables nBuf tb) → BufTy
  | .hbm, ⟨0, _⟩ => ⟨S128x1024x64, .f32⟩
  | .hbm, ⟨1, _⟩ => ⟨S128x1024x64, .f32⟩
  | .hbm, ⟨2, _⟩ => ⟨S128x1024x64, .f32⟩
  | .hbm, ⟨3, _⟩ => ⟨S128x1024x1024, .i1⟩
  | .hbm, ⟨4, _⟩ => ⟨S128x1024x1024, .i32⟩
  | .hbm, ⟨5, _⟩ => ⟨S128x1024x64, .f32⟩
  | .hbm, ⟨6, _⟩ => ⟨S128x1024x1024, .f32⟩
  | .local _ .vmem, ⟨0, _⟩ => ⟨S1x1024x64, .f32⟩
  | .local _ .vmem, ⟨1, _⟩ => ⟨S1x1024x64, .f32⟩
  | .local _ .vmem, ⟨2, _⟩ => ⟨S1x1024x64, .f32⟩
  | .local _ .vmem, ⟨3, _⟩ => ⟨S1x1024x64, .f32⟩
  | .local _ .vmem, ⟨4, _⟩ => ⟨S1x1024x64, .f32⟩
  | .local _ .vmem, ⟨5, _⟩ => ⟨S1x1024x64, .f32⟩
  | .local _ .vmem, ⟨6, _⟩ => ⟨S1x1024x1024, .i32⟩
  | .local _ .vmem, ⟨7, _⟩ => ⟨S1x1024x1024, .i32⟩
  | .local _ .vmem, ⟨8, _⟩ => ⟨S1x1024x64, .f32⟩
  | .local _ .vmem, ⟨9, _⟩ => ⟨S1x1024x64, .f32⟩
  | .local _ .vmem, ⟨10, _⟩ => ⟨S1x1024x1024, .f32⟩
  | .local _ .vmem, ⟨11, _⟩ => ⟨S1x1024x1024, .f32⟩
  | _, _ => ⟨S128x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  natLt_1_32 : 1 < 32
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  transposes_S1024x64_p1_0_S64x1024 : S1024x64.Transposes [1, 0] S64x1024
  reduces_S1024x1024_S1024 : S1024x1024.Reduces [1] S1024
  shapeCasts_S1024_S1024x1 : S1024.ShapeCasts S1024x1
  broadcasts_S1024x1_S1024x1024 : S1024x1.Broadcasts S1024x1024
  shapeCasts_S1024x64_S1x1024x64 : S1024x64.ShapeCasts S1x1024x64
  shapeCasts_S1024x1024_S1x1024x1024 : S1024x1024.ShapeCasts S1x1024x1024
  dot_S1024x64_S64x1024_S1024x1024_1_0_0_1_n_n_wf : DotDims.WF S1024x64 S64x1024 S1024x1024 [1] [0] [0] [1] [] []
  dot_S1024x1024_S1024x64_S1024x64_1_0_0_1_n_n_wf : DotDims.WF S1024x1024 S1024x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x64.size a ≤ S128x1024x64.size a
  hwx0_0 : ∀ i : grid0.Coords, EltTy.bits .f32 = 32 ∨ (Rect.block (s := S128x1024x64) S1x1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x64.size a ≤ S128x1024x64.size a
  hwx0_1 : ∀ i : grid0.Coords, EltTy.bits .f32 = 32 ∨ (Rect.block (s := S128x1024x64) S1x1024x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x64.size a ≤ S128x1024x64.size a
  hwx0_2 : ∀ i : grid0.Coords, EltTy.bits .f32 = 32 ∨ (Rect.block (s := S128x1024x64) S1x1024x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1024.size a ≤ S128x1024x1024.size a
  hwx0_3 : ∀ i : grid0.Coords, EltTy.bits .i32 = 32 ∨ (Rect.block (s := S128x1024x1024) S1x1024x1024.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x64.size a ≤ S128x1024x64.size a
  hwx0_4 : ∀ i : grid0.Coords, EltTy.bits .f32 = 32 ∨ (Rect.block (s := S128x1024x64) S1x1024x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x1024.size a ≤ S128x1024x1024.size a
  hwx0_5 : ∀ i : grid0.Coords, EltTy.bits .f32 = 32 ∨ (Rect.block (s := S128x1024x1024) S1x1024x1024.size (cc0_transform_5 i) (hinb0_5 i)).WholeWords (EltTy.packing .f32)

variable [Facts₀]

def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf

abbrev win0_0 : Pipeline.Window sig grid0 :=
  Pipeline.Window.ofSpec (Memref.whole main_arg0) S1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1024x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1024x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_0) S1x1024x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1_1) S1x1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S128x1024x64 : Shape := ⟨3, ![128, 1024, 64]⟩
abbrev S128x1024x1024 : Shape := ⟨3, ![128, 1024, 1024]⟩
abbrev S_ : Shape := ⟨0, ![]⟩
abbrev S128x1024 : Shape := ⟨2, ![128, 1024]⟩
abbrev S128x1024x1 : Shape := ⟨3, ![128, 1024, 1]⟩

abbrev nBuf : Space → Nat
  | .hbm => 31
  | .vmem => 0
  | .smem => 0
  | _ => 0

abbrev bufTy : (tb : Table) → Fin (tcTables nBuf tb) → BufTy
  | .hbm, ⟨0, _⟩ => ⟨S128x1024x64, .f32⟩
  | .hbm, ⟨1, _⟩ => ⟨S128x1024x64, .f32⟩
  | .hbm, ⟨2, _⟩ => ⟨S128x1024x64, .f32⟩
  | .hbm, ⟨3, _⟩ => ⟨S128x1024x1024, .i1⟩
  | .hbm, ⟨4, _⟩ => ⟨S128x1024x1024, .f32⟩
  | .hbm, ⟨5, _⟩ => ⟨S_, .f32⟩
  | .hbm, ⟨6, _⟩ => ⟨S128x1024x1024, .f32⟩
  | .hbm, ⟨7, _⟩ => ⟨S128x1024x1024, .f32⟩
  | .hbm, ⟨8, _⟩ => ⟨S_, .f32⟩
  | .hbm, ⟨9, _⟩ => ⟨S_, .f32⟩
  | .hbm, ⟨10, _⟩ => ⟨S128x1024x1024, .f32⟩
  | .hbm, ⟨11, _⟩ => ⟨S128x1024x1024, .f32⟩
  | .hbm, ⟨12, _⟩ => ⟨S_, .f32⟩
  | .hbm, ⟨13, _⟩ => ⟨S128x1024, .f32⟩
  | .hbm, ⟨14, _⟩ => ⟨S_, .f32⟩
  | .hbm, ⟨15, _⟩ => ⟨S128x1024, .f32⟩
  | .hbm, ⟨16, _⟩ => ⟨S128x1024, .f32⟩
  | .hbm, ⟨17, _⟩ => ⟨S128x1024x1, .f32⟩
  | .hbm, ⟨18, _⟩ => ⟨S128x1024x1024, .f32⟩
  | .hbm, ⟨19, _⟩ => ⟨S128x1024x1024, .f32⟩
  | .hbm, ⟨20, _⟩ => ⟨S128x1024x1024, .f32⟩
  | .hbm, ⟨21, _⟩ => ⟨S_, .f32⟩
  | .hbm, ⟨22, _⟩ => ⟨S128x1024, .f32⟩
  | .hbm, ⟨23, _⟩ => ⟨S128x1024x1, .f32⟩
  | .hbm, ⟨24, _⟩ => ⟨S128x1024x1024, .f32⟩
  | .hbm, ⟨25, _⟩ => ⟨S128x1024x1024, .f32⟩
  | .hbm, ⟨26, _⟩ => ⟨S128x1024x1024, .i1⟩
  | .hbm, ⟨27, _⟩ => ⟨S_, .f32⟩
  | .hbm, ⟨28, _⟩ => ⟨S128x1024x1024, .f32⟩
  | .hbm, ⟨29, _⟩ => ⟨S128x1024x1024, .f32⟩
  | .hbm, ⟨30, _⟩ => ⟨S128x1024x64, .f32⟩
  | _, _ => ⟨S128x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_call0_v0 : Ref sig .tc := ⟨.hbm, 9, rfl⟩
abbrev main_call0_v1 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_cst_2 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_call1_v0 : Ref sig .tc := ⟨.hbm, 28, rfl⟩
abbrev main_v16 : Ref sig .tc := ⟨.hbm, 29, rfl⟩
abbrev main_v17 : Ref sig .tc := ⟨.hbm, 30, rfl⟩

abbrev nD : Nat := 1
abbrev τ : Topo := Topo.v7x

variable {F : FTy → Type} [FloatOps F]

class Facts₀ : Prop where
  bcast_S_S128x1024x1024 : S_.BroadcastsInDim S128x1024x1024 (![] : Fin 0 → Fin S128x1024x1024.rank)
  reducesTo_S128x1024x1024_S128x1024_d2 : S128x1024x1024.ReducesTo [2] S128x1024
  h_S_ : 0 < S_.numel
  bcast_S_S128x1024 : S_.BroadcastsInDim S128x1024 (![] : Fin 0 → Fin S128x1024.rank)
  bcast_S128x1024_S128x1024x1_0_1 : S128x1024.BroadcastsInDim S128x1024x1 (![0, 1] : Fin 2 → Fin S128x1024x1.rank)
  bcast_S128x1024x1_S128x1024x1024_0_1_2 : S128x1024x1.BroadcastsInDim S128x1024x1024 (![0, 1, 2] : Fin 3 → Fin S128x1024x1024.rank)
  dot_S128x1024x64_S128x1024x64_S128x1024x1024_2_2_1_1_0_0_wf : DotDims.WF S128x1024x64 S128x1024x64 S128x1024x1024 [2] [2] [1] [1] [0] [0]
  dot_S128x1024x1024_S128x1024x64_S128x1024x64_2_1_1_2_0_0_wf : DotDims.WF S128x1024x1024 S128x1024x64 S128x1024x64 [2] [1] [1] [2] [0] [0]

variable [Facts₀]

def dot_S128x1024x64_S128x1024x64_S128x1024x1024_2_2_1_1_0_0 : DotDims S128x1024x64 S128x1024x64 S128x1024x1024 where
  lhsContracting := [2]
  rhsContracting := [2]
  lhsNonContracting := [1]
  rhsNonContracting := [1]
  lhsBatch := [0]
  rhsBatch := [0]
  wf := dot_S128x1024x64_S128x1024x64_S128x1024x1024_2_2_1_1_0_0_wf
def dot_S128x1024x1024_S128x1024x64_S128x1024x64_2_1_1_2_0_0 : DotDims S128x1024x1024 S128x1024x64 S128x1024x64 where
  lhsContracting := [2]
  rhsContracting := [1]
  lhsNonContracting := [1]
  rhsNonContracting := [2]
  lhsBatch := [0]
  rhsBatch := [0]
  wf := dot_S128x1024x1024_S128x1024x64_S128x1024x64_2_1_1_2_0_0_wf

class Facts : Prop extends Facts₀ where

variable [Facts]
-- ==== Proof.Spec.lean ====
/-
  Masked scaled-dot-product attention over a batch of 128 heads, 1024 positions, width 64, as ONE function of the
  argument arrays, index by index, on the extended reals.

  For batch `b`, query row `i` and key column `j` the SCORE is `-∞` where the mask bit is set and otherwise
  `(∑ d, q[b,i,d] · k[b,j,d]) · 2⁻⁵`. A row of scores `s` goes to its softmax row: with `M = max_j s j` (the fold of
  `max` from `-∞`), `e j = exp (s j - M)` and `Σ = ∑ j, e j`, the entry is `e j / Σ`, replaced by `0` where the
  quotient differs from itself (never, on the extended reals: the test is kept as the programs spell it, so no
  case analysis is needed). The second result is the product of that matrix with the values:
  `out[b,i,d] = ∑ j, attn[b,i,j] · v[b,j,d]`.

  Also here: the three float words the two programs spell differently (`-∞`, `32`, `2⁻⁵`) as extended reals, the
  law `x / 32 = x · 2⁻⁵` on every extended real, and the mask bit recovered from its 32-bit widening.
-/
import Idealize.ShloMosaic.PureOps.Ideal
import Idealize.ShloMosaic.PureOps.Ideal.Laws
import Idealize.ShloMosaic.Lib.ValueIdx

noncomputable section

namespace Cert.Attn

open Idealize.ShloMosaic Idealize.ShloMosaic.ValueIdx

/-! ## The float words -/

/-- The pattern `0xFF800000` denotes `-∞`, the bottom of the extended reals. -/
theorem ofBits_negInf : Ideal.ofBits .f32 0xFF800000#32 = ⊥ := by
  simp [Ideal.ofBits, Ideal.ieee]

/-- The pattern `0x42000000` denotes the real `32`. -/
theorem ofBits_32 : Ideal.ofBits .f32 0x42000000#32 = ((32 : ℝ) : EReal) := by
  simp [Ideal.ofBits, Ideal.ieee, -EReal.coe_mul]; norm_num

/-- The pattern `0x3D000000` denotes the real `1/32`. -/
theorem ofBits_inv32 : Ideal.ofBits .f32 0x3D000000#32 = ((1 / 32 : ℝ) : EReal) := by
  simp [Ideal.ofBits, Ideal.ieee, -EReal.coe_mul]; norm_num

/-- The quotient by `32` is the product with `2⁻⁵`, at the infinities too. -/
theorem div_32 (x : EReal) :
    Ideal.div x (Ideal.ofBits .f32 0x42000000#32) = x * Ideal.ofBits .f32 0x3D000000#32 := by
  rw [ofBits_32, ofBits_inv32]
  exact Ideal.div_coe (by norm_num) x

/-- The maximum with `-∞` is the other operand. -/
theorem max_negInf (y : EReal) : max (Ideal.ofBits .f32 0xFF800000#32) y = y := by
  rw [ofBits_negInf]; exact max_eq_right bot_le

/-- A mask bit widened to 32 bits and compared against zero is the bit again. -/
theorem ne_zero_setWidth (b : BitVec 1) : IntOp.cmpi .ne (b.setWidth 32) 0#32 = b := by
  by_cases h : b = 1#1
  · subst h; decide
  · have h0 := eq_zero_of_ne_one h; subst h0; decide

/-! ## One row -/

/-- The maximum of a row of scores, folded from `-∞`. -/
def rowMax (s : Fin 1024 → EReal) : EReal :=
  (Finset.univ : Finset (Fin 1024)).fold max (Ideal.ofBits .f32 0xFF800000#32) s

/-- The exponential of a score less the row's maximum. -/
def rowExp (s : Fin 1024 → EReal) (j : Fin 1024) : EReal := Ideal.exp (s j - rowMax s)

/-- The exponential over the row's sum of exponentials. -/
def rowQuot (s : Fin 1024 → EReal) (j : Fin 1024) : EReal :=
  Ideal.div (rowExp s j) (∑ j' : Fin 1024, rowExp s j')

/-- The softmax entry: the quotient, or zero where the quotient is unequal to itself. -/
def rowAttn (s : Fin 1024 → EReal) (j : Fin 1024) : EReal :=
  Scalar.select (Ideal.cmp .une (rowQuot s j) (rowQuot s j)) (Ideal.ofBits .f32 0x00000000#32) (rowQuot s j)

/-! ## The arrays -/

/-- The shape of the queries, keys, values and of the second result. -/
abbrev QKV : Shape := ⟨3, ![128, 1024, 64]⟩
/-- The shape of the mask and of the attention matrix. -/
abbrev MSK : Shape := ⟨3, ![128, 1024, 1024]⟩

/-- The masked, scaled score of query row `i` against key row `j` in batch `b`. -/
def score (q k : QKV.Idx → EReal) (mk : MSK.Idx → BitVec 1) (b : Fin 128) (i j : Fin 1024) : EReal :=
  Scalar.select (mk (ix3 b i j)) (Ideal.ofBits .f32 0xFF800000#32)
    ((∑ d : Fin 64, q (ix3 b i d) * k (ix3 b j d)) * Ideal.ofBits .f32 0x3D000000#32)

/-- The attention matrix at batch `b`, row `i`, column `j`. -/
def attnAt (q k : QKV.Idx → EReal) (mk : MSK.Idx → BitVec 1) (b : Fin 128) (i j : Fin 1024) : EReal :=
  rowAttn (fun j' => score q k mk b i j') j

/-- The attention-weighted values at batch `b`, row `i`, feature `d`. -/
def outAt (q k v : QKV.Idx → EReal) (mk : MSK.Idx → BitVec 1) (b : Fin 128) (i : Fin 1024) (d : Fin 64) : EReal :=
  ∑ j : Fin 1024, attnAt q k mk b i j * v (ix3 b j d)

/-- The attention matrix as an array. -/
def attn (q k : QKV.Idx → EReal) (mk : MSK.Idx → BitVec 1) : MSK.Idx → EReal :=
  fun y => attnAt q k mk (y 0) (y 1) (y 2)

/-- The attention-weighted values as an array. -/
def out (q k v : QKV.Idx → EReal) (mk : MSK.Idx → BitVec 1) : QKV.Idx → EReal :=
  fun y => outAt q k v mk (y 0) (y 1) (y 2)

theorem attn_ix3 (q k : QKV.Idx → EReal) (mk : MSK.Idx → BitVec 1) (b : Fin 128) (i j : Fin 1024) :
    attn q k mk (ix3 b i j) = attnAt q k mk b i j := rfl

theorem out_ix3 (q k v : QKV.Idx → EReal) (mk : MSK.Idx → BitVec 1) (b : Fin 128) (i : Fin 1024) (d : Fin 64) :
    out q k v mk (ix3 b i d) = outAt q k v mk b i d := rfl

end Cert.Attn

end
-- ==== Proof.RefValue.lean ====
/-
  The reference, stage by stage, is the specification: its batched product of queries with keys over the feature
  axis, the quotient by `32` (the product with `2⁻⁵`), the mask to `-∞`, the row maximum (a fold of `max` from
  `-∞`, then one more `max` with `-∞`, which changes nothing), the exponentials, their row sum from zero, the
  quotient, the self-inequality test, and the batched product with the values — each read at an index `(b, i, j)`
  by the generated stage lemmas, the index maps identified with the coordinates.
-/
import proofs.«157601_j20753281974874_1_alg».proof.Proof.Gen.ReferenceIdeal.Read
import proofs.«157601_j20753281974874_1_alg».proof.Proof.Spec
import Idealize.ShloMosaic.PureOps.Reduce

noncomputable section

namespace Cert.Attn.Ref

open Cert.ReferenceIdeal Cert.ReferenceIdeal.Gen Cert.ReferenceIdeal.Read
open Idealize.ShloMosaic Idealize.ShloMosaic.ValueIdx Idealize.ShloMosaic.StableHlo Cert.Attn

variable (xq xk xv : QKV.Idx → EReal) (xm : MSK.Idx → BitVec 1)

/-- The masked score at `(b, i, j)`. -/
theorem v3_at (b : Fin 128) (i j : Fin 1024) :
    val_main_v3 (F := Ideal) xq xk xm (ix3 b i j) = score xq xk xm b i j := by
  rw [val_main_v3_apply, val_main_call0_v1_apply, val_main_call0_v0_apply, val_main_cst_0_apply,
    val_main_v2_apply, val_main_v0_apply, val_main_v1_apply, val_main_cst_apply]
  have el : ∀ d : Fin 64, lidx_main_v0 (ix3 b i j) d = ix3 b i d := fun d => funext fun a => Fin.ext (by
    match a with | ⟨0, _⟩ => rfl | ⟨1, _⟩ => rfl | ⟨2, _⟩ => rfl)
  have er : ∀ d : Fin 64, ridx_main_v0 (ix3 b i j) d = ix3 b j d := fun d => funext fun a => Fin.ext (by
    match a with | ⟨0, _⟩ => rfl | ⟨1, _⟩ => rfl | ⟨2, _⟩ => rfl)
  simp only [el, er, Ideal.hostDivf_def, Ideal.ofBits_def, div_32]
  rfl

/-- Row `(b, i)` with column `j` put back on the reduced axis is `(b, i, j)`. -/
theorem lift_row (h : S128x1024x1024.Reduces [2] S128x1024) (b : Fin 128) (i : Fin 1024) (j : Fin (S128x1024x1024.size 2)) :
    h.lift (ix2 b i) j = ix3 b i (⟨j.val, j.isLt⟩ : Fin 1024) := by
  funext c; apply Fin.ext
  fin_cases c <;> rfl

/-- The row maximum at `(b, i)`. -/
theorem v4_at (b : Fin 128) (i : Fin 1024) :
    val_main_v4 (F := Ideal) xq xk xm (ix2 b i) = rowMax (fun j => score xq xk xm b i j) := by
  unfold val_main_v4
  have h : S128x1024x1024.Reduces [2] S128x1024 := by decide
  rw [Host.reduce_eq_fold_single FloatOps.maximumf _ _ reducesTo_S128x1024x1024_S128x1024_d2 h h_S_]
  have hf : (val_main_v3 (F := Ideal) xq xk xm ∘ h.lift (ix2 b i)) = fun j : Fin 1024 => score xq xk xm b i j :=
    funext fun j => (congrArg (val_main_v3 (F := Ideal) xq xk xm) (lift_row h b i j)).trans (v3_at xq xk xm b i _)
  unfold rowMax
  exact congrArg (fun f => Finset.fold max (Ideal.ofBits .f32 0xFF800000#32) f (Finset.univ : Finset (Fin 1024))) hf

/-- The exponential of the score less its row's maximum at `(b, i, j)`. -/
theorem v10_at (b : Fin 128) (i j : Fin 1024) :
    val_main_v10 (F := Ideal) xq xk xm (ix3 b i j) = rowExp (fun j' => score xq xk xm b i j') j := by
  rw [val_main_v10_apply, val_main_v9_apply, val_main_v8_apply, val_main_v7_apply, val_main_v6_apply,
    val_main_v5_apply, val_main_cst_2_apply]
  have e78 : idx_main_v7 (idx_main_v8 (ix3 b i j)) = ix2 b i := funext fun a => Fin.ext (by
    match a with | ⟨0, _⟩ => rfl | ⟨1, _⟩ => rfl)
  rw [e78, v3_at, v4_at]
  simp only [Ideal.hostUnary_exp_def, Ideal.subf_def, Ideal.maximumf_def, Ideal.ofBits_def, max_negInf]
  rfl

/-- The exponential over its row's sum at `(b, i, j)`. -/
theorem v14_at (b : Fin 128) (i j : Fin 1024) :
    val_main_v14 (F := Ideal) xq xk xm (ix3 b i j) = rowQuot (fun j' => score xq xk xm b i j') j := by
  rw [val_main_v14_apply, val_main_v13_apply, val_main_v12_apply, val_main_v11_apply, val_main_cst_3_apply, v10_at]
  have e : idx_main_v12 (idx_main_v13 (ix3 b i j)) = ix2 b i := funext fun a => Fin.ext (by
    match a with | ⟨0, _⟩ => rfl | ⟨1, _⟩ => rfl)
  rw [e]
  have es : ∀ j' : Fin 1024, val_main_v10 (F := Ideal) xq xk xm (idx_main_v11 (ix2 b i) j')
      = rowExp (fun j' => score xq xk xm b i j') j' := fun j' => by
    have e' : idx_main_v11 (ix2 b i) j' = ix3 b i j' := funext fun a => Fin.ext (by
      match a with | ⟨0, _⟩ => rfl | ⟨1, _⟩ => rfl | ⟨2, _⟩ => rfl)
    rw [e', v10_at]
  simp only [es, Ideal.hostDivf_def, Ideal.ofBits_def, Ideal.ofBits_zero_f32, zero_add]
  rfl

/-- The attention matrix at `(b, i, j)`. -/
theorem v16_at (b : Fin 128) (i j : Fin 1024) :
    val_main_v16 (F := Ideal) xq xk xm (ix3 b i j) = attnAt xq xk xm b i j := by
  rw [val_main_v16_apply, val_main_v15_apply, val_main_call1_v0_apply, val_main_cst_4_apply, v14_at]
  rfl

/-- The attention-weighted values at `(b, i, d)`. -/
theorem v17_at (b : Fin 128) (i : Fin 1024) (d : Fin 64) :
    val_main_v17 (F := Ideal) xq xk xv xm (ix3 b i d) = outAt xq xk xv xm b i d := by
  rw [val_main_v17_apply]
  unfold outAt
  refine Finset.sum_congr rfl fun j _ => ?_
  have el : lidx_main_v17 (ix3 b i d) j = ix3 b i j := funext fun a => Fin.ext (by
    match a with | ⟨0, _⟩ => rfl | ⟨1, _⟩ => rfl | ⟨2, _⟩ => rfl)
  have er : ridx_main_v17 (ix3 b i d) j = ix3 b j d := funext fun a => Fin.ext (by
    match a with | ⟨0, _⟩ => rfl | ⟨1, _⟩ => rfl | ⟨2, _⟩ => rfl)
  rw [el, er, v16_at]

/-- The reference's attention matrix is the specification's. -/
theorem attn_eq : val_main_v16 (F := Ideal) xq xk xm = attn xq xk xm := by
  funext y
  obtain ⟨b, i, j, rfl⟩ : ∃ (b : Fin 128) (i j : Fin 1024), y = ix3 b i j := ⟨y 0, y 1, y 2, eq_ix3 y⟩
  exact v16_at xq xk xm b i j

/-- The reference's attention-weighted values are the specification's. -/
theorem out_eq : val_main_v17 (F := Ideal) xq xk xv xm = out xq xk xv xm := by
  funext y
  obtain ⟨b, i, d, rfl⟩ : ∃ (b : Fin 128) (i : Fin 1024) (d : Fin 64), y = ix3 b i d := ⟨y 0, y 1, y 2, eq_ix3 y⟩
  exact v17_at xq xk xv xm b i d

end Cert.Attn.Ref

end
-- ==== Proof.LibKeepdims.lean ====
/-
  A row reduction kept as a column: the three layout steps of `max(x, axis=-1, keepdims=True)` and
  `sum(x, axis=-1, keepdims=True)` on a matrix, each read at coordinates.

  * a `vector.multi_reduction` of an `[a, b]` matrix over its second axis, at row `i`: the fold of `max` from the
    accumulator's value, or the sum, over the row's entries `(i, k)`;
  * an `[a]` vector cast to the column `[a, 1]`, at `(i, u)`: the vector at `i`;
  * an `[a, 1]` column broadcast to `[a, b]`, at `(i, j)`: the column at `(i, 0)`.
-/
import Idealize.ShloMosaic.PureOps.Ideal.Laws
import Idealize.ShloMosaic.Lib.ValueIdx
import Idealize.ShloMosaic.Lib.Pipeline.Value

noncomputable section

namespace Idealize.ShloMosaic.ValueKeepdims

open Idealize.ShloMosaic Idealize.ShloMosaic.ValueIdx

variable {α : Type}

/-- Row `i` with column `k` put back on the reduced second axis is `(i, k)`. -/
theorem lift_axis1_ix2 {a b : ℕ} (h : (⟨2, ![a, b]⟩ : Shape).Reduces [1] (⟨1, ![a]⟩ : Shape)) (i : Fin a)
    (k : Fin ((⟨2, ![a, b]⟩ : Shape).size 1)) : h.lift (ix1 i) k = ix2 i (⟨k.val, k.isLt⟩ : Fin b) := by
  funext c; apply Fin.ext
  fin_cases c <;> rfl

/-- A float `vector.multi_reduction <maximumf>` of an `[a, b]` matrix over its second axis, read on the extended reals at
    row `i`: the fold of `max`, from the accumulator's value, over the row's entries. -/
theorem multiReduction_maximumf_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) := by
  rw [Ideal.multiReduction_maximumf_single]
  have hf : (src ∘ h.lift (ix1 i)) = fun k : Fin b => src (ix2 i k) :=
    funext fun k => congrArg src (lift_axis1_ix2 h i k)
  exact congrArg (fun f => Finset.fold max (Ideal.ofBits φ acc) f (Finset.univ : Finset (Fin b))) hf

/-- A float `vector.multi_reduction <add>` of an `[a, b]` matrix over its second axis, read on the extended reals at row
    `i`: the sum of the row's entries. -/
theorem multiReduction_add_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (i : Fin a) :
    multiReduction .add [1] ⟨1, ![a]⟩ src acc h hφ hacc (ix1 i) = ∑ k : Fin b, src (ix2 i k) := by
  rw [Ideal.multiReduction_add_single]
  exact Finset.sum_congr rfl fun k _ => congrArg src (lift_axis1_ix2 h i k)

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An `[a, 1]` column broadcast to `[a, b]` reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

end Idealize.ShloMosaic.ValueKeepdims

end
-- ==== Proof.Payload.lean ====
/-
  What the kernel body computes from one batch's blocks, read at coordinates.

  The body's attention payload is the row softmax (`softmaxVec`: row maximum kept as a column and broadcast back,
  exponential of the difference, row sum kept as a column and broadcast back, quotient, self-inequality test) of a
  score matrix (`scoreVec`: the query block times the transposed key block into a zero accumulator, times `2⁻⁵`,
  `-∞` where the widened mask word is nonzero). At `(i, j)` the softmax of ANY matrix `s` is the specification's
  row function of row `i` of `s`; the score matrix at `(i, j)` is `∑ d, Q[0,i,d] · K[0,j,d]` scaled and masked.
  The body's second payload is the product of the attention payload with the value block:
  `∑ j, A[i,j] · V[0,j,d]` at `(0, i, d)`.
-/
import proofs.«157601_j20753281974874_1_alg».proof.Proof.Gen.KernelIdeal.Skeleton
import proofs.«157601_j20753281974874_1_alg».proof.Proof.Spec
import proofs.«157601_j20753281974874_1_alg».proof.Proof.LibKeepdims
import Idealize.ShloMosaic.Lib.ValueLayout
import Idealize.ShloMosaic.Lib.Pipeline.Value

noncomputable section

namespace Cert.Attn.Ker

open Cert.KernelIdeal Cert.KernelIdeal.Gen
open Idealize.ShloMosaic Idealize.ShloMosaic.ValueIdx Idealize.ShloMosaic.ValueKeepdims Cert.Attn

/-! ## The row softmax of a matrix, as the body's vector operations -/

/-- Each row's maximum (folded from `-∞`), kept as a column and broadcast back over the row. -/
def rowMaxVec (s : FVec Ideal S1024x1024 .f32) : FVec Ideal S1024x1024 .f32 :=
  broadcastTo S1024x1024
    (shapeCast S1024x1 (multiReduction .maximumf [1] S1024 s 0xFF800000#32 reduces_S1024x1024_S1024 (.inl rfl) rfl)
      shapeCasts_S1024_S1024x1) broadcasts_S1024x1_S1024x1024

/-- The exponential of each entry less its row's maximum. -/
def expVec (s : FVec Ideal S1024x1024 .f32) : FVec Ideal S1024x1024 .f32 := exp (subf s (rowMaxVec s))

/-- Each row's sum, kept as a column and broadcast back over the row. -/
def rowSumVec (e : FVec Ideal S1024x1024 .f32) : FVec Ideal S1024x1024 .f32 :=
  broadcastTo S1024x1024
    (shapeCast S1024x1 (multiReduction .add [1] S1024 e 0x00000000#32 reduces_S1024x1024_S1024 (.inl rfl) rfl)
      shapeCasts_S1024_S1024x1) broadcasts_S1024x1_S1024x1024

/-- Each exponential over its row's sum. -/
def quotVec (s : FVec Ideal S1024x1024 .f32) : FVec Ideal S1024x1024 .f32 := divf (expVec s) (rowSumVec (expVec s))

/-- The quotient, zero where it is unequal to itself. -/
def softmaxVec (s : FVec Ideal S1024x1024 .f32) : FVec Ideal S1024x1024 .f32 :=
  select (cmpf .one (quotVec s) (quotVec s)) (broadcast S1024x1024 (Scalar.ofBits (F := Ideal) .f32 0x00000000#32)) (quotVec s)

theorem rowMaxVec_at (s : FVec Ideal S1024x1024 .f32) (i j : Fin 1024) :
    rowMaxVec s (ix2 i j) = rowMax (fun j' => s (ix2 i j')) :=
  (broadcastTo_a1_ab_apply _ broadcasts_S1024x1_S1024x1024 i j).trans
    ((shapeCast_a_a1_apply _ shapeCasts_S1024_S1024x1 i 0).trans
      (multiReduction_maximumf_row s 0xFF800000#32 reduces_S1024x1024_S1024 (.inl rfl) rfl i))

theorem expVec_at (s : FVec Ideal S1024x1024 .f32) (i j : Fin 1024) :
    expVec s (ix2 i j) = rowExp (fun j' => s (ix2 i j')) j := by
  show Ideal.exp (s (ix2 i j) - rowMaxVec s (ix2 i j)) = _
  rw [rowMaxVec_at]
  rfl

theorem rowSumVec_at (e : FVec Ideal S1024x1024 .f32) (i j : Fin 1024) :
    rowSumVec e (ix2 i j) = ∑ j' : Fin 1024, e (ix2 i j') :=
  (broadcastTo_a1_ab_apply _ broadcasts_S1024x1_S1024x1024 i j).trans
    ((shapeCast_a_a1_apply _ shapeCasts_S1024_S1024x1 i 0).trans
      (multiReduction_add_row e 0x00000000#32 reduces_S1024x1024_S1024 (.inl rfl) rfl i))

theorem quotVec_at (s : FVec Ideal S1024x1024 .f32) (i j : Fin 1024) :
    quotVec s (ix2 i j) = rowQuot (fun j' => s (ix2 i j')) j := by
  show Ideal.div (expVec s (ix2 i j)) (rowSumVec (expVec s) (ix2 i j)) = _
  rw [rowSumVec_at, expVec_at]
  unfold rowQuot
  exact congrArg (Ideal.div _) (Finset.sum_congr rfl fun j' _ => expVec_at s i j')

/-- The row softmax of a matrix at `(i, j)` is the specification's row function of its row `i`, at `j`. -/
theorem softmaxVec_at (s : FVec Ideal S1024x1024 .f32) (i j : Fin 1024) :
    softmaxVec s (ix2 i j) = rowAttn (fun j' => s (ix2 i j')) j := by
  show Scalar.select (Ideal.cmp .one (quotVec s (ix2 i j)) (quotVec s (ix2 i j))) (Ideal.ofBits .f32 0x00000000#32)
    (quotVec s (ix2 i j)) = _
  rw [quotVec_at]
  rfl

/-! ## The two matrix products at coordinates -/

theorem qk_lhs0 (j : S1024x1024.Idx) (q : dot_S1024x64_S64x1024_S1024x1024_1_0_0_1_n_n.contr.Idx) : (dot_S1024x64_S64x1024_S1024x1024_1_0_0_1_n_n.lhsIdx j q 0).val = (j 0).val := by
  unfold DotDims.lhsIdx
  rw [dif_neg (show ¬(0 : Fin S1024x64.rank) ∈ dot_S1024x64_S64x1024_S1024x1024_1_0_0_1_n_n.lhsBatch by decide),
    dif_pos (show (0 : Fin S1024x64.rank) ∈ dot_S1024x64_S64x1024_S1024x1024_1_0_0_1_n_n.lhsNonContracting by decide)]
  rfl

theorem qk_rhs1 (j : S1024x1024.Idx) (q : dot_S1024x64_S64x1024_S1024x1024_1_0_0_1_n_n.contr.Idx) : (dot_S1024x64_S64x1024_S1024x1024_1_0_0_1_n_n.rhsIdx j q 1).val = (j 1).val := by
  unfold DotDims.rhsIdx
  rw [dif_neg (show ¬(1 : Fin S64x1024.rank) ∈ dot_S1024x64_S64x1024_S1024x1024_1_0_0_1_n_n.rhsBatch by decide),
    dif_pos (show (1 : Fin S64x1024.rank) ∈ dot_S1024x64_S64x1024_S1024x1024_1_0_0_1_n_n.rhsNonContracting by decide)]
  rfl

/-- A `[1024, 64]` matrix times a `[64, 1024]` matrix into the zero accumulator, at `(i, j)`. -/
theorem qk_at (A : FVec Ideal S1024x64 .f32) (B : FVec Ideal S64x1024 .f32) (i j : Fin 1024) :
    matmul dot_S1024x64_S64x1024_S1024x1024_1_0_0_1_n_n none A B (constant (F := Ideal) S1024x1024 .f32 0x00000000#32) (ix2 i j)
      = ∑ d : Fin 64, A (ix2 i d) * B (ix2 d j) := by
  refine (Ideal.matmul_constant_zero_apply dot_S1024x64_S64x1024_S1024x1024_1_0_0_1_n_n none A B (ix2 i j)).trans ?_
  rw [← Equiv.sum_comp (contrEquiv1 dot_S1024x64_S64x1024_S1024x1024_1_0_0_1_n_n 64 rfl rfl).symm]
  refine Finset.sum_congr rfl fun d _ => ?_
  have hd := contrEquiv1_symm_val dot_S1024x64_S64x1024_S1024x1024_1_0_0_1_n_n 64 rfl rfl d
  have el : dot_S1024x64_S64x1024_S1024x1024_1_0_0_1_n_n.lhsIdx (ix2 i j) ((contrEquiv1 dot_S1024x64_S64x1024_S1024x1024_1_0_0_1_n_n 64 rfl rfl).symm d) = ix2 i d := funext fun a => Fin.ext (by
    match a with
    | ⟨0, _⟩ => exact qk_lhs0 _ _
    | ⟨1, _⟩ => exact (dot_S1024x64_S64x1024_S1024x1024_1_0_0_1_n_n.lhsIdx_val_of_single rfl _ _).trans hd)
  have er : dot_S1024x64_S64x1024_S1024x1024_1_0_0_1_n_n.rhsIdx (ix2 i j) ((contrEquiv1 dot_S1024x64_S64x1024_S1024x1024_1_0_0_1_n_n 64 rfl rfl).symm d) = ix2 d j := funext fun a => Fin.ext (by
    match a with
    | ⟨0, _⟩ => exact (dot_S1024x64_S64x1024_S1024x1024_1_0_0_1_n_n.rhsIdx_val_of_single rfl _ _).trans hd
    | ⟨1, _⟩ => exact qk_rhs1 _ _)
  rw [el, er]

theorem av_lhs0 (j : S1024x64.Idx) (q : dot_S1024x1024_S1024x64_S1024x64_1_0_0_1_n_n.contr.Idx) : (dot_S1024x1024_S1024x64_S1024x64_1_0_0_1_n_n.lhsIdx j q 0).val = (j 0).val := by
  unfold DotDims.lhsIdx
  rw [dif_neg (show ¬(0 : Fin S1024x1024.rank) ∈ dot_S1024x1024_S1024x64_S1024x64_1_0_0_1_n_n.lhsBatch by decide),
    dif_pos (show (0 : Fin S1024x1024.rank) ∈ dot_S1024x1024_S1024x64_S1024x64_1_0_0_1_n_n.lhsNonContracting by decide)]
  rfl

theorem av_rhs1 (j : S1024x64.Idx) (q : dot_S1024x1024_S1024x64_S1024x64_1_0_0_1_n_n.contr.Idx) : (dot_S1024x1024_S1024x64_S1024x64_1_0_0_1_n_n.rhsIdx j q 1).val = (j 1).val := by
  unfold DotDims.rhsIdx
  rw [dif_neg (show ¬(1 : Fin S1024x64.rank) ∈ dot_S1024x1024_S1024x64_S1024x64_1_0_0_1_n_n.rhsBatch by decide),
    dif_pos (show (1 : Fin S1024x64.rank) ∈ dot_S1024x1024_S1024x64_S1024x64_1_0_0_1_n_n.rhsNonContracting by decide)]
  rfl

/-- A `[1024, 1024]` matrix times a `[1024, 64]` matrix into the zero accumulator, at `(i, d)`. -/
theorem av_at (A : FVec Ideal S1024x1024 .f32) (B : FVec Ideal S1024x64 .f32) (i : Fin 1024) (d : Fin 64) :
    matmul dot_S1024x1024_S1024x64_S1024x64_1_0_0_1_n_n none A B (constant (F := Ideal) S1024x64 .f32 0x00000000#32) (ix2 i d)
      = ∑ j : Fin 1024, A (ix2 i j) * B (ix2 j d) := by
  refine (Ideal.matmul_constant_zero_apply dot_S1024x1024_S1024x64_S1024x64_1_0_0_1_n_n none A B (ix2 i d)).trans ?_
  rw [← Equiv.sum_comp (contrEquiv1 dot_S1024x1024_S1024x64_S1024x64_1_0_0_1_n_n 1024 rfl rfl).symm]
  refine Finset.sum_congr rfl fun j _ => ?_
  have hj := contrEquiv1_symm_val dot_S1024x1024_S1024x64_S1024x64_1_0_0_1_n_n 1024 rfl rfl j
  have el : dot_S1024x1024_S1024x64_S1024x64_1_0_0_1_n_n.lhsIdx (ix2 i d) ((contrEquiv1 dot_S1024x1024_S1024x64_S1024x64_1_0_0_1_n_n 1024 rfl rfl).symm j) = ix2 i j := funext fun a => Fin.ext (by
    match a with
    | ⟨0, _⟩ => exact av_lhs0 _ _
    | ⟨1, _⟩ => exact (dot_S1024x1024_S1024x64_S1024x64_1_0_0_1_n_n.lhsIdx_val_of_single rfl _ _).trans hj)
  have er : dot_S1024x1024_S1024x64_S1024x64_1_0_0_1_n_n.rhsIdx (ix2 i d) ((contrEquiv1 dot_S1024x1024_S1024x64_S1024x64_1_0_0_1_n_n 1024 rfl rfl).symm j) = ix2 j d := funext fun a => Fin.ext (by
    match a with
    | ⟨0, _⟩ => exact (dot_S1024x1024_S1024x64_S1024x64_1_0_0_1_n_n.rhsIdx_val_of_single rfl _ _).trans hj
    | ⟨1, _⟩ => exact av_rhs1 _ _)
  rw [el, er]

/-! ## The score matrix of one batch's blocks -/

/-- The body's score matrix: the query block times the transposed key block, times `2⁻⁵`, `-∞` where the mask word is nonzero. -/
def scoreVec (P0 P1 : FVec Ideal S1x1024x64 .f32) (P2 : IVec S1x1024x1024 32) : FVec Ideal S1024x1024 .f32 :=
  select (cmpi .ne (shapeCast S1024x1024 P2 shapeCasts_S1x1024x1024_S1024x1024) (constantI S1024x1024 32 0#32))
    (broadcast S1024x1024 (Scalar.ofBits (F := Ideal) .f32 0xFF800000#32))
    (mulf (matmul dot_S1024x64_S64x1024_S1024x1024_1_0_0_1_n_n none (shapeCast S1024x64 P0 shapeCasts_S1x1024x64_S1024x64)
        (transpose S64x1024 [1, 0] (shapeCast S1024x64 P1 shapeCasts_S1x1024x64_S1024x64) transposes_S1024x64_p1_0_S64x1024)
        (constant (F := Ideal) S1024x1024 .f32 0x00000000#32))
      (broadcast S1024x1024 (Scalar.ofBits (F := Ideal) .f32 0x3D000000#32)))

/-- The same at coordinates, over the blocks' own entries. -/
def bscore (P0 P1 : FVec Ideal S1x1024x64 .f32) (P2 : IVec S1x1024x1024 32) (i j : Fin 1024) : EReal :=
  Scalar.select (IntOp.cmpi .ne (P2 (ix3 (0 : Fin 1) i j)) 0#32) (Ideal.ofBits .f32 0xFF800000#32)
    ((∑ d : Fin 64, P0 (ix3 (0 : Fin 1) i d) * P1 (ix3 (0 : Fin 1) j d)) * Ideal.ofBits .f32 0x3D000000#32)

theorem scoreVec_at (P0 P1 : FVec Ideal S1x1024x64 .f32) (P2 : IVec S1x1024x1024 32) (i j : Fin 1024) :
    scoreVec P0 P1 P2 (ix2 i j) = bscore P0 P1 P2 i j := by
  have hm : shapeCast S1024x1024 P2 shapeCasts_S1x1024x1024_S1024x1024 (ix2 i j) = P2 (ix3 (0 : Fin 1) i j) :=
    shapeCast_1ab_ab_apply P2 _ i j
  have hq : ∀ d : Fin 64, shapeCast S1024x64 P0 shapeCasts_S1x1024x64_S1024x64 (ix2 i d) = P0 (ix3 (0 : Fin 1) i d) :=
    fun d => shapeCast_1ab_ab_apply P0 _ i d
  have hk : ∀ d : Fin 64, transpose S64x1024 [1, 0] (shapeCast S1024x64 P1 shapeCasts_S1x1024x64_S1024x64)
      transposes_S1024x64_p1_0_S64x1024 (ix2 d j) = P1 (ix3 (0 : Fin 1) j d) :=
    fun d => (transpose_ix2_apply _ _ d j).trans (shapeCast_1ab_ab_apply P1 _ j d)
  show Scalar.select (IntOp.cmpi .ne (shapeCast S1024x1024 P2 shapeCasts_S1x1024x1024_S1024x1024 (ix2 i j)) 0#32)
      (Ideal.ofBits .f32 0xFF800000#32)
      (matmul dot_S1024x64_S64x1024_S1024x1024_1_0_0_1_n_n none (shapeCast S1024x64 P0 shapeCasts_S1x1024x64_S1024x64)
        (transpose S64x1024 [1, 0] (shapeCast S1024x64 P1 shapeCasts_S1x1024x64_S1024x64) transposes_S1024x64_p1_0_S64x1024)
        (constant (F := Ideal) S1024x1024 .f32 0x00000000#32) (ix2 i j) * Ideal.ofBits .f32 0x3D000000#32) = _
  rw [hm, qk_at]
  simp only [hq, hk]
  rfl

/-! ## The body's payloads -/

/-- The attention payload is the row softmax of the score matrix. -/
theorem pay2_eq (P0 P1 : FVec Ideal S1x1024x64 .f32) (P2 : IVec S1x1024x1024 32) :
    k0_pay2 (F := Ideal) P0 P1 P2 = softmaxVec (scoreVec P0 P1 P2) := rfl

/-- The attention payload at `(i, j)`: the specification's row function of the block's row of scores. -/
theorem pay2_at (P0 P1 : FVec Ideal S1x1024x64 .f32) (P2 : IVec S1x1024x1024 32) (i j : Fin 1024) :
    k0_pay2 (F := Ideal) P0 P1 P2 (ix2 i j) = rowAttn (fun j' => bscore P0 P1 P2 i j') j :=
  (congrFun (pay2_eq P0 P1 P2) (ix2 i j)).trans
    ((softmaxVec_at _ i j).trans (congrArg (fun s => rowAttn s j) (funext fun j' => scoreVec_at P0 P1 P2 i j')))

/-- The second payload at `(u, i, d)`: the attention payload's row `i` against the value block's column `d`. -/
theorem pay3_at (P0 P1 P4 : FVec Ideal S1x1024x64 .f32) (P2 : IVec S1x1024x1024 32) (u : Fin 1) (i : Fin 1024) (d : Fin 64) :
    k0_pay3 (F := Ideal) P0 P1 P4 P2 (ix3 u i d)
      = ∑ j : Fin 1024, k0_pay2 (F := Ideal) P0 P1 P2 (ix2 i j) * P4 (ix3 (0 : Fin 1) j d) := by
  have hv : ∀ j : Fin 1024, shapeCast S1024x64 P4 shapeCasts_S1x1024x64_S1024x64 (ix2 j d) = P4 (ix3 (0 : Fin 1) j d) :=
    fun j => shapeCast_1ab_ab_apply P4 _ j d
  show shapeCast S1x1024x64 (matmul dot_S1024x1024_S1024x64_S1024x64_1_0_0_1_n_n none (k0_pay2 (F := Ideal) P0 P1 P2)
      (shapeCast S1024x64 P4 shapeCasts_S1x1024x64_S1024x64) (constant (F := Ideal) S1024x64 .f32 0x00000000#32))
      shapeCasts_S1024x64_S1x1024x64 (ix3 u i d) = _
  refine (shapeCast_ab_1ab_apply _ shapeCasts_S1024x64_S1x1024x64 u i d).trans ?_
  refine (av_at _ _ i d).trans ?_
  exact Finset.sum_congr rfl fun j _ => congrArg (_ * ·) (hv j)

/-! ## One batch's blocks against the argument arrays -/

/-- When the query and key blocks are batch `b`'s slices of the arguments and the mask block is batch `b`'s mask bits
    widened to 32 bits, the attention payload at `(i, j)` is the specification's matrix at `(b, i, j)`. -/
theorem attn_block (xq xk : QKV.Idx → EReal) (xm : MSK.Idx → BitVec 1)
    (P0 P1 : FVec Ideal S1x1024x64 .f32) (P2 : IVec S1x1024x1024 32) (b : Fin 128)
    (h0 : ∀ (i : Fin 1024) (d : Fin 64), P0 (ix3 (0 : Fin 1) i d) = xq (ix3 b i d))
    (h1 : ∀ (i : Fin 1024) (d : Fin 64), P1 (ix3 (0 : Fin 1) i d) = xk (ix3 b i d))
    (h2 : ∀ (i j : Fin 1024), P2 (ix3 (0 : Fin 1) i j) = (xm (ix3 b i j)).setWidth 32) (i j : Fin 1024) :
    k0_pay2 (F := Ideal) P0 P1 P2 (ix2 i j) = attnAt xq xk xm b i j := by
  refine (pay2_at P0 P1 P2 i j).trans ?_
  unfold attnAt
  refine congrArg (fun s => rowAttn s j) (funext fun j' => ?_)
  unfold bscore score
  rw [h2, ne_zero_setWidth]
  simp only [h0, h1]

/-- The stored attention block at a block index `y`: the specification's matrix at batch `b`, row `y 1`, column `y 2`. -/
theorem attn_store_block (xq xk : QKV.Idx → EReal) (xm : MSK.Idx → BitVec 1)
    (P0 P1 : FVec Ideal S1x1024x64 .f32) (P2 : IVec S1x1024x1024 32) (b : Fin 128)
    (h0 : ∀ (i : Fin 1024) (d : Fin 64), P0 (ix3 (0 : Fin 1) i d) = xq (ix3 b i d))
    (h1 : ∀ (i : Fin 1024) (d : Fin 64), P1 (ix3 (0 : Fin 1) i d) = xk (ix3 b i d))
    (h2 : ∀ (i j : Fin 1024), P2 (ix3 (0 : Fin 1) i j) = (xm (ix3 b i j)).setWidth 32) (y : S1x1024x1024.Idx) :
    k0_pay1 (F := Ideal) (k0_pay2 (F := Ideal) P0 P1 P2) y = attnAt xq xk xm b (y 1) (y 2) := by
  obtain ⟨u, i, j, rfl⟩ : ∃ (u : Fin 1) (i j : Fin 1024), y = ix3 u i j := ⟨y 0, y 1, y 2, eq_ix3 y⟩
  show shapeCast S1x1024x1024 (k0_pay2 (F := Ideal) P0 P1 P2) shapeCasts_S1024x1024_S1x1024x1024 (ix3 u i j) = _
  exact (shapeCast_ab_1ab_apply _ shapeCasts_S1024x1024_S1x1024x1024 u i j).trans
    (attn_block xq xk xm P0 P1 P2 b h0 h1 h2 i j)

/-- The stored second block at a block index `y`: the specification's attention-weighted values at batch `b`, row
    `y 1`, feature `y 2`, when moreover the value block is batch `b`'s slice of the values. -/
theorem out_store_block (xq xk xv : QKV.Idx → EReal) (xm : MSK.Idx → BitVec 1)
    (P0 P1 P4 : FVec Ideal S1x1024x64 .f32) (P2 : IVec S1x1024x1024 32) (b : Fin 128)
    (h0 : ∀ (i : Fin 1024) (d : Fin 64), P0 (ix3 (0 : Fin 1) i d) = xq (ix3 b i d))
    (h1 : ∀ (i : Fin 1024) (d : Fin 64), P1 (ix3 (0 : Fin 1) i d) = xk (ix3 b i d))
    (h2 : ∀ (i j : Fin 1024), P2 (ix3 (0 : Fin 1) i j) = (xm (ix3 b i j)).setWidth 32)
    (h4 : ∀ (j : Fin 1024) (d : Fin 64), P4 (ix3 (0 : Fin 1) j d) = xv (ix3 b j d)) (y : S1x1024x64.Idx) :
    k0_pay3 (F := Ideal) P0 P1 P4 P2 y = outAt xq xk xv xm b (y 1) (y 2) := by
  obtain ⟨u, i, d, rfl⟩ : ∃ (u : Fin 1) (i : Fin 1024) (d : Fin 64), y = ix3 u i d := ⟨y 0, y 1, y 2, eq_ix3 y⟩
  refine (pay3_at P0 P1 P4 P2 u i d).trans ?_
  show _ = ∑ j : Fin 1024, attnAt xq xk xm b i j * xv (ix3 b j d)
  exact Finset.sum_congr rfl fun j _ => by rw [attn_block xq xk xm P0 P1 P2 b h0 h1 h2 i j, h4]

end Cert.Attn.Ker

end
-- ==== Proof.Blocks.lean ====
/-
  From one batch's blocks to the whole arrays.

  The grid has one point per batch: at point `t` every window's block is batch `t` of its array (index maps
  `t ↦ (t, 0, 0)`, decided over the 128 points), the mask window's array being the mask widened to 32-bit words
  by the one host operation before the launch. So what point `t` writes back to each result is batch `t` of the
  specification's array of the arguments; the 128 blocks cover each result array; hence after the run the two
  result arrays ARE the specification's arrays.
-/
import proofs.«157601_j20753281974874_1_alg».proof.Proof.Gen.KernelIdeal.Value
import proofs.«157601_j20753281974874_1_alg».proof.Proof.Payload
import Idealize.ShloMosaic.Lib.Pipeline.Value
import Idealize.ShloMosaic.Lib.StableHlo.Run
import Idealize.ShloMosaic.Lib.Tactic

noncomputable section

namespace Cert.Attn.Blocks

open Cert.KernelIdeal Cert.KernelIdeal.Gen Cert.KernelIdeal.Value
open Idealize.ShloMosaic Idealize.ShloMosaic.TcCoe Idealize.SL.Sem Idealize.ShloMosaic.ValueIdx Cert.Attn
open Idealize.ShloMosaic.Pipeline (Dat)

variable (m : (ℓ : Loc nD τ sig) → Buf (Elt Ideal) ℓ) (ρ : Dev nD → PrngReg)

theorem hz : (![0, 0, 0] : Fin 3 → Nat) = fun _ => 0 := funext fun a => by fin_cases a <;> rfl

/-- The batch a grid point works on. -/
def batchOf (t : Fin cfg0.N) : Fin 128 := ⟨t.val, by have h := t.isLt; have hN : cfg0.N = 128 := N_0; omega⟩

/-! ## The index maps: point `t` takes block `(t, 0, 0)` of every window -/

theorem idx_facts0 : ∀ t : Fin cfg0.N, win0_0.index t (0 : Fin 3) = t.val ∧ win0_0.index t (1 : Fin 3) = 0
    ∧ win0_0.index t (2 : Fin 3) = 0 :=
  (by decide +kernel : ∀ t : Fin grid0.N, _)

theorem idx_facts1 : ∀ t : Fin cfg0.N, win0_1.index t (0 : Fin 3) = t.val ∧ win0_1.index t (1 : Fin 3) = 0
    ∧ win0_1.index t (2 : Fin 3) = 0 :=
  (by decide +kernel : ∀ t : Fin grid0.N, _)

theorem idx_facts2 : ∀ t : Fin cfg0.N, win0_2.index t (0 : Fin 3) = t.val ∧ win0_2.index t (1 : Fin 3) = 0
    ∧ win0_2.index t (2 : Fin 3) = 0 :=
  (by decide +kernel : ∀ t : Fin grid0.N, _)

theorem idx_facts3 : ∀ t : Fin cfg0.N, win0_3.index t (0 : Fin 3) = t.val ∧ win0_3.index t (1 : Fin 3) = 0
    ∧ win0_3.index t (2 : Fin 3) = 0 :=
  (by decide +kernel : ∀ t : Fin grid0.N, _)

theorem idx_facts4 : ∀ t : Fin cfg0.N, win0_4.index t (0 : Fin 3) = t.val ∧ win0_4.index t (1 : Fin 3) = 0
    ∧ win0_4.index t (2 : Fin 3) = 0 :=
  (by decide +kernel : ∀ t : Fin grid0.N, _)

theorem idx_facts5 : ∀ t : Fin cfg0.N, win0_5.index t (0 : Fin 3) = t.val ∧ win0_5.index t (1 : Fin 3) = 0
    ∧ win0_5.index t (2 : Fin 3) = 0 :=
  (by decide +kernel : ∀ t : Fin grid0.N, _)

/-! ## The arrays the region finds, and each input block as a batch of its array -/

/-- The mask window's array is the mask widened to 32-bit words. -/
theorem V_main_v0 (c : Dev nD) :
    (V m c main_v0 : S128x1024x1024.Idx → BitVec 32) = extui 32 (m ((c : Thread nD τ).loc main_arg3)) natLt_1_32 := by
  dsimp only [Gen.V, Gen.hostOps0]
  after_results <;> rfl

/-- Window 0's block at point `t` is batch `t` of `main_arg0`. -/
theorem iblk0_at (c : Dev nD) (t : Fin cfg0.N) (i : Fin 1024) (d : Fin 64) :
    (iblk m c 0 t : FVec Ideal S1x1024x64 .f32) (ix3 (0 : Fin 1) i d)
      = (m ((c : Thread nD τ).loc main_arg0) : S128x1024x64.Idx → EReal) (ix3 (batchOf t) i d) := by
  obtain ⟨e0, e1, e2⟩ := idx_facts0 t
  unfold iblk
  rw [View.read_apply]
  show V m c main_arg0 _ = m ((c : Thread nD τ).loc main_arg0) _
  rw [V_main_arg0]
  congr 1
  funext a
  apply Fin.ext
  match a with
  | ⟨0, _⟩ => show win0_0.index t (0 : Fin 3) * 1 + 1 * (0 : ℕ) = t.val; omega
  | ⟨1, _⟩ => show win0_0.index t (1 : Fin 3) * 1024 + 1 * i.val = i.val; omega
  | ⟨2, _⟩ => show win0_0.index t (2 : Fin 3) * 64 + 1 * d.val = d.val; omega

/-- Window 1's block at point `t` is batch `t` of `main_arg1`. -/
theorem iblk1_at (c : Dev nD) (t : Fin cfg0.N) (i : Fin 1024) (d : Fin 64) :
    (iblk m c 1 t : FVec Ideal S1x1024x64 .f32) (ix3 (0 : Fin 1) i d)
      = (m ((c : Thread nD τ).loc main_arg1) : S128x1024x64.Idx → EReal) (ix3 (batchOf t) i d) := by
  obtain ⟨e0, e1, e2⟩ := idx_facts1 t
  unfold iblk
  rw [View.read_apply]
  show V m c main_arg1 _ = m ((c : Thread nD τ).loc main_arg1) _
  rw [V_main_arg1]
  congr 1
  funext a
  apply Fin.ext
  match a with
  | ⟨0, _⟩ => show win0_1.index t (0 : Fin 3) * 1 + 1 * (0 : ℕ) = t.val; omega
  | ⟨1, _⟩ => show win0_1.index t (1 : Fin 3) * 1024 + 1 * i.val = i.val; omega
  | ⟨2, _⟩ => show win0_1.index t (2 : Fin 3) * 64 + 1 * d.val = d.val; omega

/-- Window 2's block at point `t` is batch `t` of `main_arg2`. -/
theorem iblk2_at (c : Dev nD) (t : Fin cfg0.N) (i : Fin 1024) (d : Fin 64) :
    (iblk m c 2 t : FVec Ideal S1x1024x64 .f32) (ix3 (0 : Fin 1) i d)
      = (m ((c : Thread nD τ).loc main_arg2) : S128x1024x64.Idx → EReal) (ix3 (batchOf t) i d) := by
  obtain ⟨e0, e1, e2⟩ := idx_facts2 t
  unfold iblk
  rw [View.read_apply]
  show V m c main_arg2 _ = m ((c : Thread nD τ).loc main_arg2) _
  rw [V_main_arg2]
  congr 1
  funext a
  apply Fin.ext
  match a with
  | ⟨0, _⟩ => show win0_2.index t (0 : Fin 3) * 1 + 1 * (0 : ℕ) = t.val; omega
  | ⟨1, _⟩ => show win0_2.index t (1 : Fin 3) * 1024 + 1 * i.val = i.val; omega
  | ⟨2, _⟩ => show win0_2.index t (2 : Fin 3) * 64 + 1 * d.val = d.val; omega

/-- The mask window's block at point `t` is batch `t` of the mask, each bit widened to 32 bits. -/
theorem iblk3_at (c : Dev nD) (t : Fin cfg0.N) (i j : Fin 1024) :
    (iblk m c 3 t : IVec S1x1024x1024 32) (ix3 (0 : Fin 1) i j)
      = ((m ((c : Thread nD τ).loc main_arg3) : S128x1024x1024.Idx → BitVec 1) (ix3 (batchOf t) i j)).setWidth 32 := by
  obtain ⟨e0, e1, e2⟩ := idx_facts3 t
  unfold iblk
  rw [View.read_apply]
  show V m c main_v0 _ = _
  rw [V_main_v0]
  show ((m ((c : Thread nD τ).loc main_arg3) : S128x1024x1024.Idx → BitVec 1) _).setWidth 32 = _
  congr 2
  funext a
  apply Fin.ext
  match a with
  | ⟨0, _⟩ => show win0_3.index t (0 : Fin 3) * 1 + 1 * (0 : ℕ) = t.val; omega
  | ⟨1, _⟩ => show win0_3.index t (1 : Fin 3) * 1024 + 1 * i.val = i.val; omega
  | ⟨2, _⟩ => show win0_3.index t (2 : Fin 3) * 1024 + 1 * j.val = j.val; omega

/-! ## What each point writes back -/

/-- Point `t` writes back, to the second result, batch `t` of the specification's attention-weighted values. -/
theorem flushed4_eq (c : Dev nD) (t : Fin cfg0.N) :
    (dats m 0 c).flushed 4 t = ((cfg0.win 4).blk t).view.read (Elt Ideal)
      (out (m ((c : Thread nD τ).loc main_arg0)) (m ((c : Thread nD τ).loc main_arg1))
        (m ((c : Thread nD τ).loc main_arg2)) (m ((c : Thread nD τ).loc main_arg3))) := by
  rw [Value.flushed4]
  unfold out0_4
  rw [View.canon_unit_zero hz]
  simp only [View.ld_unit_zero (S := S1x1024x64) hz, View.ld_unit_zero (S := S1x1024x1024) hz]
  obtain ⟨e0, e1, e2⟩ := idx_facts4 t
  refine funext fun (y : S1x1024x64.Idx) => ?_
  have hy0 : (y 0).val < 1 := (y 0).isLt
  show k0_pay3 (F := Ideal) (iblk m c 0 t) (iblk m c 1 t) (iblk m c 2 t) (iblk m c 3 t) y
    = out (m ((c : Thread nD τ).loc main_arg0)) (m ((c : Thread nD τ).loc main_arg1))
        (m ((c : Thread nD τ).loc main_arg2)) (m ((c : Thread nD τ).loc main_arg3)) (((cfg0.win 4).blk t).view.emb y)
  refine (Ker.out_store_block (m ((c : Thread nD τ).loc main_arg0)) (m ((c : Thread nD τ).loc main_arg1))
    (m ((c : Thread nD τ).loc main_arg2)) (m ((c : Thread nD τ).loc main_arg3))
    (iblk m c 0 t) (iblk m c 1 t) (iblk m c 2 t) (iblk m c 3 t) (batchOf t)
    (iblk0_at m c t) (iblk1_at m c t) (iblk3_at m c t) (iblk2_at m c t) y).trans ?_
  have q0 : (((cfg0.win 4).blk t).view.emb y) 0 = batchOf t := Fin.ext (by
    show win0_4.index t (0 : Fin 3) * 1 + 1 * (y 0).val = t.val; omega)
  have q1 : (((cfg0.win 4).blk t).view.emb y) 1 = y 1 := Fin.ext (by
    show win0_4.index t (1 : Fin 3) * 1024 + 1 * (y 1).val = (y 1).val; omega)
  have q2 : (((cfg0.win 4).blk t).view.emb y) 2 = y 2 := Fin.ext (by
    show win0_4.index t (2 : Fin 3) * 64 + 1 * (y 2).val = (y 2).val; omega)
  show _ = outAt _ _ _ _ ((((cfg0.win 4).blk t).view.emb y) 0) ((((cfg0.win 4).blk t).view.emb y) 1)
    ((((cfg0.win 4).blk t).view.emb y) 2)
  rw [q0, q1, q2]

/-- Point `t` writes back, to the attention result, batch `t` of the specification's attention matrix. -/
theorem flushed5_eq (c : Dev nD) (t : Fin cfg0.N) :
    (dats m 0 c).flushed 5 t = ((cfg0.win 5).blk t).view.read (Elt Ideal)
      (attn (m ((c : Thread nD τ).loc main_arg0)) (m ((c : Thread nD τ).loc main_arg1))
        (m ((c : Thread nD τ).loc main_arg3))) := by
  rw [Value.flushed5]
  unfold out0_5
  rw [View.canon_unit_zero hz]
  simp only [View.ld_unit_zero (S := S1x1024x64) hz, View.ld_unit_zero (S := S1x1024x1024) hz]
  obtain ⟨e0, e1, e2⟩ := idx_facts5 t
  refine funext fun (y : S1x1024x1024.Idx) => ?_
  have hy0 : (y 0).val < 1 := (y 0).isLt
  show k0_pay1 (F := Ideal) (k0_pay2 (F := Ideal) (iblk m c 0 t) (iblk m c 1 t) (iblk m c 3 t)) y
    = attn (m ((c : Thread nD τ).loc main_arg0)) (m ((c : Thread nD τ).loc main_arg1))
        (m ((c : Thread nD τ).loc main_arg3)) (((cfg0.win 5).blk t).view.emb y)
  refine (Ker.attn_store_block (m ((c : Thread nD τ).loc main_arg0)) (m ((c : Thread nD τ).loc main_arg1))
    (m ((c : Thread nD τ).loc main_arg3))
    (iblk m c 0 t) (iblk m c 1 t) (iblk m c 3 t) (batchOf t)
    (iblk0_at m c t) (iblk1_at m c t) (iblk3_at m c t) y).trans ?_
  have q0 : (((cfg0.win 5).blk t).view.emb y) 0 = batchOf t := Fin.ext (by
    show win0_5.index t (0 : Fin 3) * 1 + 1 * (y 0).val = t.val; omega)
  have q1 : (((cfg0.win 5).blk t).view.emb y) 1 = y 1 := Fin.ext (by
    show win0_5.index t (1 : Fin 3) * 1024 + 1 * (y 1).val = (y 1).val; omega)
  have q2 : (((cfg0.win 5).blk t).view.emb y) 2 = y 2 := Fin.ext (by
    show win0_5.index t (2 : Fin 3) * 1024 + 1 * (y 2).val = (y 2).val; omega)
  show _ = attnAt _ _ _ ((((cfg0.win 5).blk t).view.emb y) 0) ((((cfg0.win 5).blk t).view.emb y) 1)
    ((((cfg0.win 5).blk t).view.emb y) 2)
  rw [q0, q1, q2]

/-! ## The blocks cover the result arrays -/

/-- Every index of the second result lies in the block of the point of its batch. -/
theorem cover4 (i : S128x1024x64.Idx) :
    ∃ t : Fin cfg0.N, (cfg0.win 4).flush t = true ∧ i ∈ ((cfg0.win 4).blk t).view.set := by
  have hi0 : (i 0).val < 128 := (i 0).isLt
  have hi1 : (i 1).val < 1024 := (i 1).isLt
  have hi2 : (i 2).val < 64 := (i 2).isLt
  obtain ⟨t, ht⟩ : ∃ t : Fin cfg0.N, t.val = (i 0).val := ⟨⟨(i 0).val, by rw [show cfg0.N = 128 from N_0]; exact hi0⟩, rfl⟩
  obtain ⟨e0, e1, e2⟩ := idx_facts4 t
  refine ⟨t, flush0_4 t, ?_⟩
  show i ∈ ((View.whole main_v1_0).slice (win0_4.rect t)).set
  rw [View.set_slice_whole, Rect.mem_set_unit]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1024 ≤ (i 1).val ∧ (i 1).val < win0_4.index t (1 : Fin 3) * 1024 + 1024; omega
  | ⟨2, _⟩ => show win0_4.index t (2 : Fin 3) * 64 ≤ (i 2).val ∧ (i 2).val < win0_4.index t (2 : Fin 3) * 64 + 64; omega

/-- Every index of the attention result lies in the block of the point of its batch. -/
theorem cover5 (i : S128x1024x1024.Idx) :
    ∃ t : Fin cfg0.N, (cfg0.win 5).flush t = true ∧ i ∈ ((cfg0.win 5).blk t).view.set := by
  have hi0 : (i 0).val < 128 := (i 0).isLt
  have hi1 : (i 1).val < 1024 := (i 1).isLt
  have hi2 : (i 2).val < 1024 := (i 2).isLt
  obtain ⟨t, ht⟩ : ∃ t : Fin cfg0.N, t.val = (i 0).val := ⟨⟨(i 0).val, by rw [show cfg0.N = 128 from N_0]; exact hi0⟩, rfl⟩
  obtain ⟨e0, e1, e2⟩ := idx_facts5 t
  refine ⟨t, flush0_5 t, ?_⟩
  show i ∈ ((View.whole main_v1_1).slice (win0_5.rect t)).set
  rw [View.set_slice_whole, Rect.mem_set_unit]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 1024 ≤ (i 1).val ∧ (i 1).val < win0_5.index t (1 : Fin 3) * 1024 + 1024; omega
  | ⟨2, _⟩ => show win0_5.index t (2 : Fin 3) * 1024 ≤ (i 2).val ∧ (i 2).val < win0_5.index t (2 : Fin 3) * 1024 + 1024; omega

/-! ## The result arrays after the run -/

theorem final4 (c : Dev nD) : (dats m 0 c).arrAt 4 cfg0.N
    = out (m ((c : Thread nD τ).loc main_arg0)) (m ((c : Thread nD τ).loc main_arg1))
        (m ((c : Thread nD τ).loc main_arg2)) (m ((c : Thread nD τ).loc main_arg3)) :=
  (dats m 0 c).arrAt_eq_of_cover 4 _ (fun t _ => flushed4_eq m c t) cover4

theorem final5 (c : Dev nD) : (dats m 0 c).arrAt 5 cfg0.N
    = attn (m ((c : Thread nD τ).loc main_arg0)) (m ((c : Thread nD τ).loc main_arg1))
        (m ((c : Thread nD τ).loc main_arg3)) :=
  (dats m 0 c).arrAt_eq_of_cover 5 _ (fun t _ => flushed5_eq m c t) cover5

/-- The kernel's run, read: the two result arrays end at the specification's arrays of the arguments, the arguments
    unchanged. -/
theorem run : θ_run defs (onTc (τ := τ) (main (F := Ideal))) ⟨m, fun _ => 0, ρ⟩ fun r => ∀ c : Dev nD,
      r.2.mem ((c : Thread nD τ).loc main_v1_0)
        = out (m ((c : Thread nD τ).loc main_arg0)) (m ((c : Thread nD τ).loc main_arg1))
            (m ((c : Thread nD τ).loc main_arg2)) (m ((c : Thread nD τ).loc main_arg3))
      ∧ r.2.mem ((c : Thread nD τ).loc main_v1_1)
        = attn (m ((c : Thread nD τ).loc main_arg0)) (m ((c : Thread nD τ).loc main_arg1))
            (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c), (h c).2.1.trans (final5 m c), (h c).2.2⟩)
    (Value.run_blocks m ρ)

end Cert.Attn.Blocks

end
-- ==== Proof.lean ====
/-
  Masked scaled-dot-product attention, a kernel against its plain reference: both return the attention matrix
  `softmax(mask(Q Kᵀ / 32))` (over the last axis, zeroed where an entry is unequal to itself) and its product
  with `V`, for 128 batches of 1024 positions and width 64.

  On the extended reals the two programs are ONE function of the arguments, index by index (Proof/Spec.lean):
  the kernel multiplies the scores by `2⁻⁵` where the reference divides by `32` — the same extended real for
  every score, infinite ones included —; the kernel tests the mask through its 32-bit widening, which gives the
  bit back; the reference takes one more maximum with `-∞`, which changes nothing; the kernel's matrix products
  into a zero accumulator and the reference's batched products are the same sums in the same order. Nothing in
  this needs the inputs to be finite, so the precondition is never opened.

  The reference side is read stage by stage (Proof/RefValue.lean, over the generated read-at-an-index lemmas).
  The kernel side: one grid point per batch; what a point computes from its blocks (Proof/Payload.lean), that its
  blocks are the batch's slices of the arguments, and that the 128 written-back blocks tile each result array
  (Proof/Blocks.lean, over the generated run with the result arrays named). The three frames are the generated
  ones; the ideal pass rewrote nothing, so its conjunct is trivial.
-/
import proofs.«157601_j20753281974874_1_alg».proof.Defs
import proofs.«157601_j20753281974874_1_alg».proof.Proof.Gen.Kernel
import proofs.«157601_j20753281974874_1_alg».proof.Proof.Gen.Kernel.Skeleton
import proofs.«157601_j20753281974874_1_alg».proof.Proof.Gen.Kernel.Launch
import proofs.«157601_j20753281974874_1_alg».proof.Proof.Gen.Kernel.Points
import proofs.«157601_j20753281974874_1_alg».proof.Proof.Gen.Kernel.Frame
import proofs.«157601_j20753281974874_1_alg».proof.Proof.Gen.KernelIdeal
import proofs.«157601_j20753281974874_1_alg».proof.Proof.Gen.KernelIdeal.Skeleton
import proofs.«157601_j20753281974874_1_alg».proof.Proof.Gen.KernelIdeal.Launch
import proofs.«157601_j20753281974874_1_alg».proof.Proof.Gen.KernelIdeal.Points
import proofs.«157601_j20753281974874_1_alg».proof.Proof.Gen.KernelIdeal.Frame
import proofs.«157601_j20753281974874_1_alg».proof.Proof.Gen.ReferenceIdeal
import proofs.«157601_j20753281974874_1_alg».proof.Proof.Gen.Pre_finite_inputs
import proofs.«157601_j20753281974874_1_alg».proof.Proof.Gen.KernelIdeal.Value
import proofs.«157601_j20753281974874_1_alg».proof.Proof.Gen.ReferenceIdeal.Run
import proofs.«157601_j20753281974874_1_alg».proof.Proof.Gen.ReferenceIdeal.Read
import proofs.«157601_j20753281974874_1_alg».proof.Proof.RefValue
import proofs.«157601_j20753281974874_1_alg».proof.Proof.Blocks
import Idealize.ShloMosaic.Adequacy
import Idealize.ShloMosaic.Init

noncomputable section

namespace Cert.Proof

open Idealize.ShloMosaic Idealize.SL.Sem Cert.Kernel

/-- The word-level kernel runs and leaves its arguments unchanged. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference runs and leaves its arguments unchanged: its run, with the two results dropped. -/
theorem frame_ri : Cert.frame_ReferenceIdeal := fun m ρ _ =>
  (θ_run Cert.ReferenceIdeal.defs _ _).mono (fun _ h c => (h c).2.2)
    (Cert.ReferenceIdeal.Value.run (F := Ideal) m ρ)

/-- From arguments that agree, both programs end with the specification's two arrays: the attention-weighted values
    and the attention matrix of the (common) arguments. -/
theorem algebraic : Cert.algebraic_KernelIdeal_ReferenceIdeal := by
  intro m ρ m' ρ' _ hagree
  refine ⟨_, _, Cert.Attn.Blocks.run m ρ, ?_⟩
  refine (θ_run Cert.ReferenceIdeal.defs _ _).mono (fun _ h c => ?_)
    (Cert.ReferenceIdeal.Value.run (F := Ideal) m' ρ')
  obtain ⟨a0, a1, a2, a3⟩ := hagree c
  refine ⟨(h c).1.trans ?_, (h c).2.1.trans ?_, (h c).2.2⟩
  · rw [Cert.ReferenceIdeal.Read.val_main_v17_eq, Cert.Attn.Ref.out_eq, a0, a1, a2, a3]
  · rw [Cert.ReferenceIdeal.Read.val_main_v16_eq, Cert.Attn.Ref.attn_eq, a0, a1, a3]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
